-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S512x128 .f32) (main_arg2 : FVec F S256x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S128x512 : Shape := ⟨2, ![128, 512]⟩
abbrev S1x512 : Shape := ⟨2, ![1, 512]⟩
abbrev S1x1 : Shape := ⟨2, ![1, 1]⟩
abbrev S64x512 : Shape := ⟨2, ![64, 512]⟩
abbrev S64x128 : Shape := ⟨2, ![64, 128]⟩
abbrev S64x1x512 : Shape := ⟨3, ![64, 1, 512]⟩
abbrev S1x128x512 : Shape := ⟨3, ![1, 128, 512]⟩
abbrev S64x128x512 : Shape := ⟨3, ![64, 128, 512]⟩
abbrev S1x1x512 : Shape := ⟨3, ![1, 1, 512]⟩
abbrev S8192x512 : Shape := ⟨2, ![8192, 512]⟩

abbrev nBuf : Space → Nat
  | .hbm => 18
  | .vmem => 11
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x512, .f32⟩
  | .hbm, ⟨9, _⟩ => ⟨S128x512, .f32⟩
  | .hbm, ⟨10, _⟩ => ⟨S512x512, .f32⟩
  | .hbm, ⟨11, _⟩ => ⟨S512x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x1, .f32⟩
  | .hbm, ⟨16, _⟩ => ⟨S512x512, .bf16⟩
  | .hbm, ⟨17, _⟩ => ⟨S512x512, .f32⟩
  | .local _ .vmem, ⟨0, _⟩ => ⟨S64x512, .f32⟩
  | .local _ .vmem, ⟨1, _⟩ => ⟨S64x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S64x128, .f32⟩
  | .local _ .vmem, ⟨10, _⟩ => ⟨S64x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S256x512_S128x512_0_0 : S256x512.Slices ![0, 0] S128x512
  slices_S256x512_S128x512_128_0 : S256x512.Slices ![128, 0] S128x512
  shapeCasts_S512_S1x512 : S512.ShapeCasts S1x512
  transposes_S512x1_S1x512_1_0 : S512x1.Transposes [1, 0] S1x512
  shapeCasts_S1_S1x1 : S1.ShapeCasts S1x1
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S1x512_S1x1x512 : S1x512.ShapeCasts S1x1x512
  broadcasts_S1x1x512_S64x128x512 : S1x1x512.Broadcasts S64x128x512
  shapeCasts_S64x128x512_S8192x512 : S64x128x512.ShapeCasts S8192x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S8192x512 : S1x512.Broadcasts S8192x512
  shapeCasts_S8192x512_S64x128x512 : S8192x512.ShapeCasts S64x128x512
  reduces_S64x128x512_S64x128 : S64x128x512.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S64x128_S64x128_0_0 : ∀ a, (![0, 0] : Fin 2 → Nat) a + S64x128.size a ≤ S64x128.size a
  h_S64x128 : 0 < S64x128.numel
  dot_S512x128_S128x512_S512x512_1_0_0_1_n_n_wf : DotDims.WF S512x128 S128x512 S512x512 [1] [0] [0] [1] [] []
  dot_S8192x512_S512x512_S8192x512_1_0_0_1_n_n_wf : DotDims.WF S8192x512 S512x512 S8192x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S512x512.size a
  hwx0_0 : ∀ i : grid0.Coords, EltTy.bits .f32 = 32 ∨ (Rect.block (s := S512x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S512x512.size a
  hwx0_7 : ∀ i : grid0.Coords, EltTy.bits .f32 = 32 ∨ (Rect.block (s := S512x512) S64x128.size (cc0_transform_7 i) (hinb0_7 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

abbrev win0_0 : Pipeline.Window sig grid0 :=
  Pipeline.Window.ofSpec (Memref.whole main_v2) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S128x512 : Shape := ⟨2, ![128, 512]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩
abbrev S_ : Shape := ⟨0, ![]⟩
abbrev S512x512x1 : Shape := ⟨3, ![512, 512, 1]⟩
abbrev S1x1x1 : Shape := ⟨3, ![1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x512, .f32⟩
  | .hbm, ⟨9, _⟩ => ⟨S128x512, .f32⟩
  | .hbm, ⟨10, _⟩ => ⟨S512x512, .f32⟩
  | .hbm, ⟨11, _⟩ => ⟨S512x512, .f32⟩
  | .hbm, ⟨12, _⟩ => ⟨S512x1x512, .f32⟩
  | .hbm, ⟨13, _⟩ => ⟨S1x512x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S1x1x512, .f32⟩
  | .hbm, ⟨18, _⟩ => ⟨S512x512x512, .f32⟩
  | .hbm, ⟨19, _⟩ => ⟨S512x512x512, .f32⟩
  | .hbm, ⟨20, _⟩ => ⟨S_, .f32⟩
  | .hbm, ⟨21, _⟩ => ⟨S512x512x512, .f32⟩
  | .hbm, ⟨22, _⟩ => ⟨S512x512x512, .f32⟩
  | .hbm, ⟨23, _⟩ => ⟨S512x512x512, .f32⟩
  | .hbm, ⟨24, _⟩ => ⟨S1x1x512, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512x512x512, .f32⟩
  | .hbm, ⟨29, _⟩ => ⟨S512x512x512, .f32⟩
  | .hbm, ⟨30, _⟩ => ⟨S512x512x1, .f32⟩
  | .hbm, ⟨31, _⟩ => ⟨S1x1x1, .f32⟩
  | .hbm, ⟨32, _⟩ => ⟨S512x512x1, .f32⟩
  | .hbm, ⟨33, _⟩ => ⟨S512x512x1, .f32⟩
  | .hbm, ⟨34, _⟩ => ⟨S512x512, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  slices_S256x512_S128x512_0_0 : S256x512.Slices ![0, 0] S128x512
  slices_S256x512_S128x512_128_0 : S256x512.Slices ![128, 0] S128x512
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  bcast_S_S512x512x512 : S_.BroadcastsInDim S512x512x512 (![] : Fin 0 → Fin S512x512x512.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  shapeCasts_S512x512x1_S512x512 : S512x512x1.ShapeCasts S512x512
  dot_S512x128_S128x512_S512x512_1_0_0_1_n_n_wf : DotDims.WF S512x128 S128x512 S512x512 [1] [0] [0] [1] [] []
  dot_S512x512x512_S512x512_S512x512x512_2_0_01_1_n_n_wf : DotDims.WF S512x512x512 S512x512 S512x512x512 [2] [0] [0, 1] [1] [] []
  dot_S512x512x512_S512x1_S512x512x1_2_0_01_1_n_n_wf : DotDims.WF S512x512x512 S512x1 S512x512x1 [2] [0] [0, 1] [1] [] []

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512x512_S512x512_S512x512x512_2_0_01_1_n_n : DotDims S512x512x512 S512x512 S512x512x512 where
  lhsContracting := [2]
  rhsContracting := [0]
  lhsNonContracting := [0, 1]
  rhsNonContracting := [1]
  lhsBatch := []
  rhsBatch := []
  wf := dot_S512x512x512_S512x512_S512x512x512_2_0_01_1_n_n_wf
def dot_S512x512x512_S512x1_S512x512x1_2_0_01_1_n_n : DotDims S512x512x512 S512x1 S512x512x1 where
  lhsContracting := [2]
  rhsContracting := [0]
  lhsNonContracting := [0, 1]
  rhsNonContracting := [1]
  lhsBatch := []
  rhsBatch := []
  wf := dot_S512x512x512_S512x1_S512x512x1_2_0_01_1_n_n_wf

class Facts : Prop extends Facts₀ where

variable [Facts]
-- ==== Proof.Spec.lean ====
/-
  The pairwise scorer, as one function of the argument arrays.

  For two batches `x`, `y` of 512 rows each, the score of the pair `(i, j)` is a two-hidden-layer perceptron applied to the
  concatenation of row `i` of `x` and row `j` of `y`.  The first layer is separable: with `W1` cut into its upper 128
  rows (those that meet `x`) and its lower 128 rows (those that meet `y`),

      u_i[k]  = Σ_d x[i,d] · W1[d,k]                 (the projection of row i of x)
      v_j[k]  = Σ_d y[j,d] · W1[128+d,k]             (the projection of row j of y)
      h1[k]   = max ((u_i[k] + v_j[k]) + b1[k], 0)
      h2[k']  = max ((Σ_k h1[k] · W2[k,k']) + b2[k'], 0)
      score   = (Σ_k' h2[k'] · W3[k',0]) + b3[0]

  over the extended reals.  `pairScore` is the part after the projections, a function of ONE row `u` and ONE row `v`:
  a tile of the score matrix only ever needs the rows of the projections that meet it, which is why a tiling of the
  score matrix computes the same entries as the whole computation.  No law beyond reading both sides at an index is
  needed: the sums are spelt in the same order of factors and the additions in the same grouping.
-/
import Idealize.ShloMosaic.PureOps.Ideal
import Idealize.ShloMosaic.Lib.ValueIdx

noncomputable section

namespace Cert.PairScore

open Idealize.ShloMosaic Idealize.ShloMosaic.ValueIdx

/-- The word of `0.0` read as an extended real (never evaluated: both sides carry the same word). -/
abbrev zero : EReal := Ideal.ofBits .f32 0x00000000#32

abbrev SX : Shape := ⟨2, ![512, 128]⟩
abbrev SW1 : Shape := ⟨2, ![256, 512]⟩
abbrev SB : Shape := ⟨1, ![512]⟩
abbrev SW2 : Shape := ⟨2, ![512, 512]⟩
abbrev SW3 : Shape := ⟨2, ![512, 1]⟩
abbrev SB3 : Shape := ⟨1, ![1]⟩
abbrev SOut : Shape := ⟨2, ![512, 512]⟩

/-- Row `d` of the upper half of `W1`. -/
abbrev upper (d : Fin 128) : Fin 256 := ⟨d.val, by omega⟩
/-- Row `d` of the lower half of `W1`: row `128 + d` of the whole. -/
abbrev lower (d : Fin 128) : Fin 256 := ⟨128 + d.val, by omega⟩

/-- The score of one pair from the two projected rows `u`, `v` and the remaining parameters. -/
def pairScore (u v b1 : Fin 512 → EReal) (W2 : Fin 512 → Fin 512 → EReal) (b2 w3 : Fin 512 → EReal) (b3 : EReal) : EReal :=
  (∑ k' : Fin 512, max ((∑ k : Fin 512, max ((u k + v k) + b1 k) zero * W2 k k') + b2 k') zero * w3 k') + b3

/-- The score depends on its arguments entry by entry. -/
theorem pairScore_congr {u u' v v' b1 b1' : Fin 512 → EReal} {W2 W2' : Fin 512 → Fin 512 → EReal} {b2 b2' w3 w3' : Fin 512 → EReal}
    {b3 b3' : EReal} (hu : ∀ k, u k = u' k) (hv : ∀ k, v k = v' k) (hb1 : ∀ k, b1 k = b1' k) (hW2 : ∀ k k', W2 k k' = W2' k k')
    (hb2 : ∀ k, b2 k = b2' k) (hw3 : ∀ k, w3 k = w3' k) (hb3 : b3 = b3') :
    pairScore u v b1 W2 b2 w3 b3 = pairScore u' v' b1' W2' b2' w3' b3' := by
  rw [funext hu, funext hv, funext hb1, (funext fun k => funext (hW2 k) : W2 = W2'), funext hb2, funext hw3, hb3]

/-- Row `i` of `x` projected by the upper half of `W1`. -/
def projX (x : SX.Idx → EReal) (W1 : SW1.Idx → EReal) (i : Fin 512) (k : Fin 512) : EReal :=
  ∑ d : Fin 128, x (ix2 i d) * W1 (ix2 (upper d) k)

/-- Row `j` of `y` projected by the lower half of `W1`. -/
def projY (y : SX.Idx → EReal) (W1 : SW1.Idx → EReal) (j : Fin 512) (k : Fin 512) : EReal :=
  ∑ d : Fin 128, y (ix2 j d) * W1 (ix2 (lower d) k)

/-- The score of the pair `(i, j)` from the argument arrays. -/
def scoreAt (x y : SX.Idx → EReal) (W1 : SW1.Idx → EReal) (b1 : SB.Idx → EReal) (W2 : SW2.Idx → EReal) (b2 : SB.Idx → EReal)
    (W3 : SW3.Idx → EReal) (b3 : SB3.Idx → EReal) (i j : Fin 512) : EReal :=
  pairScore (projX x W1 i) (projY y W1 j) (fun k => b1 (ix1 k)) (fun k k' => W2 (ix2 k k')) (fun k => b2 (ix1 k))
    (fun k => W3 (ix2 k (0 : Fin 1))) (b3 (ix1 (0 : Fin 1)))

/-- THE SCORE MATRIX: entry `(i, j)` is the score of the pair `(i, j)`. -/
def scores (x y : SX.Idx → EReal) (W1 : SW1.Idx → EReal) (b1 : SB.Idx → EReal) (W2 : SW2.Idx → EReal) (b2 : SB.Idx → EReal)
    (W3 : SW3.Idx → EReal) (b3 : SB3.Idx → EReal) : SOut.Idx → EReal :=
  fun idx => scoreAt x y W1 b1 W2 b2 W3 b3 (idx 0) (idx 1)

theorem scores_ix2 (x y : SX.Idx → EReal) (W1 : SW1.Idx → EReal) (b1 : SB.Idx → EReal) (W2 : SW2.Idx → EReal) (b2 : SB.Idx → EReal)
    (W3 : SW3.Idx → EReal) (b3 : SB3.Idx → EReal) (i j : Fin 512) :
    scores x y W1 b1 W2 b2 W3 b3 (ix2 i j) = scoreAt x y W1 b1 W2 b2 W3 b3 i j := rfl

end Cert.PairScore

end
-- ==== Proof.RefScores.lean ====
/-
  The reference program's result is the score matrix.

  The reference computes the whole three-dimensional hidden tensors `h1[i,j,k]` and `h2[i,j,k']` by broadcasting and two
  contractions over the last axis, then drops the unit axis of the `[512, 512, 1]` result.  Read at an index, stage by
  stage: the two projections are sums over the 128 columns of `x` (resp. `y`) against the upper (resp. lower) half of
  `W1`; `h1` at `(i, j, k)` only sees row `i` of the first projection and row `j` of the second; each contraction at
  `(i, j, ·)` is a sum over `k : Fin 512` of the hidden row of the pair `(i, j)`; so entry `(i, j)` of the result is
  `pairScore` of the two projected rows.
-/
import proofs.«116587_j56453050138736_2_alg».proof.Proof.Gen.ReferenceIdeal.Read
import proofs.«116587_j56453050138736_2_alg».proof.Proof.Spec

noncomputable section

namespace Cert.PairScore.Ref

open Idealize.ShloMosaic Idealize.ShloMosaic.ValueIdx Cert.ReferenceIdeal Cert.ReferenceIdeal.Read Cert.PairScore

variable (x0 x1 : (⟨S512x128, .f32⟩ : BufTy).Contents (Elt Ideal)) (x2 : (⟨S256x512, .f32⟩ : BufTy).Contents (Elt Ideal))
  (x3 : (⟨S512, .f32⟩ : BufTy).Contents (Elt Ideal)) (x4 : (⟨S512x512, .f32⟩ : BufTy).Contents (Elt Ideal))
  (x5 : (⟨S512, .f32⟩ : BufTy).Contents (Elt Ideal)) (x6 : (⟨S512x1, .f32⟩ : BufTy).Contents (Elt Ideal))
  (x7 : (⟨S1, .f32⟩ : BufTy).Contents (Elt Ideal))

/-- The first projection at `(i, k)`: row `i` of `x` against column `k` of the upper half of `W1`. -/
theorem projX_apply (i k : Fin 512) : val_main_v2 (F := Ideal) x0 x2 (ix2 i k) = projX x0 x2 i k := by
  rw [val_main_v2_apply]
  unfold projX
  refine Finset.sum_congr rfl fun d _ => ?_
  rw [val_main_v0_apply]
  have e1 : lidx_main_v2 (ix2 i k) d = ix2 i d :=
    funext fun a => Fin.ext (by match a with | ⟨0, _⟩ => rfl | ⟨1, _⟩ => rfl)
  have e2 : idx_main_v0 (ridx_main_v2 (ix2 i k) d) = ix2 (upper d) k :=
    funext fun a => Fin.ext (by match a with | ⟨0, _⟩ => rfl | ⟨1, _⟩ => rfl)
  rw [e1, e2]

/-- The second projection at `(j, k)`: row `j` of `y` against column `k` of the lower half of `W1`. -/
theorem projY_apply (j k : Fin 512) : val_main_v3 (F := Ideal) x1 x2 (ix2 j k) = projY x1 x2 j k := by
  rw [val_main_v3_apply]
  unfold projY
  refine Finset.sum_congr rfl fun d _ => ?_
  rw [val_main_v1_apply]
  have e1 : lidx_main_v3 (ix2 j k) d = ix2 j d :=
    funext fun a => Fin.ext (by match a with | ⟨0, _⟩ => rfl | ⟨1, _⟩ => rfl)
  have e2 : idx_main_v1 (ridx_main_v3 (ix2 j k) d) = ix2 (lower d) k :=
    funext fun a => Fin.ext (by match a with | ⟨0, _⟩ => rfl | ⟨1, _⟩ => rfl)
  rw [e1, e2]

/-- The first hidden layer at `(i, j, k)`. -/
theorem hidden1_apply (i j k : Fin 512) :
    val_main_v12 (F := Ideal) x0 x1 x2 x3 (ix3 i j k)
      = max ((projX x0 x2 i k + projY x1 x2 j k) + x3 (ix1 k)) zero := by
  rw [val_main_v12_apply, val_main_v11_apply, val_main_v8_apply, val_main_v6_apply, val_main_v4_apply, val_main_v7_apply,
    val_main_v5_apply, val_main_v10_apply, val_main_v9_apply, val_main_call0_v0_apply, val_main_call0_cst_apply]
  have e1 : idx_main_v4 (idx_main_v6 (ix3 i j k)) = ix2 i k :=
    funext fun a => Fin.ext (by match a with | ⟨0, _⟩ => rfl | ⟨1, _⟩ => rfl)
  have e2 : idx_main_v5 (idx_main_v7 (ix3 i j k)) = ix2 j k :=
    funext fun a => Fin.ext (by match a with | ⟨0, _⟩ => rfl | ⟨1, _⟩ => rfl)
  have e3 : idx_main_v9 (idx_main_v10 (ix3 i j k)) = ix1 k :=
    funext fun a => Fin.ext (by match a with | ⟨0, _⟩ => rfl)
  rw [e1, e2, e3, projX_apply, projY_apply]
  rfl

/-- The second hidden layer at `(i, j, k')`. -/
theorem hidden2_apply (i j k' : Fin 512) :
    val_main_v17 (F := Ideal) x0 x1 x2 x3 x4 x5 (ix3 i j k')
      = max ((∑ k : Fin 512, max ((projX x0 x2 i k + projY x1 x2 j k) + x3 (ix1 k)) zero * x4 (ix2 k k')) + x5 (ix1 k')) zero := by
  rw [val_main_v17_apply, val_main_v16_apply, val_main_v13_apply, val_main_v15_apply, val_main_v14_apply,
    val_main_call1_v0_apply, val_main_call1_cst_apply]
  have e3 : idx_main_v14 (idx_main_v15 (ix3 i j k')) = ix1 k' :=
    funext fun a => Fin.ext (by match a with | ⟨0, _⟩ => rfl)
  have es : ∀ k : Fin 512, val_main_v12 (F := Ideal) x0 x1 x2 x3 (lidx_main_v13 (ix3 i j k') k) * x4 (ridx_main_v13 (ix3 i j k') k)
      = max ((projX x0 x2 i k + projY x1 x2 j k) + x3 (ix1 k)) zero * x4 (ix2 k k') := fun k => by
    have e1 : lidx_main_v13 (ix3 i j k') k = ix3 i j k :=
      funext fun a => Fin.ext (by match a with | ⟨0, _⟩ => rfl | ⟨1, _⟩ => rfl | ⟨2, _⟩ => rfl)
    have e2 : ridx_main_v13 (ix3 i j k') k = ix2 k k' :=
      funext fun a => Fin.ext (by match a with | ⟨0, _⟩ => rfl | ⟨1, _⟩ => rfl)
    rw [e1, e2, hidden1_apply]
  rw [e3, Finset.sum_congr rfl fun k _ => es k]
  rfl

/-- Entry `(i, j)` of the reference's result is the score of the pair `(i, j)`. -/
theorem result_apply (i j : Fin 512) :
    val_main_v22 (F := Ideal) x0 x1 x2 x3 x4 x5 x6 x7 (ix2 i j) = scoreAt x0 x1 x2 x3 x4 x5 x6 x7 i j := by
  rw [val_main_v22_apply, val_main_v21_apply, val_main_v18_apply, val_main_v20_apply, val_main_v19_apply]
  have hi := i.isLt
  have hj := j.isLt
  have e0 : idx_main_v22 (ix2 i j) = ix3 i j (0 : Fin 1) :=
    funext fun a => Fin.ext (by
      match a with
      | ⟨0, _⟩ => show (i.val * 512 + j.val) / 512 = i.val; omega
      | ⟨1, _⟩ => show (i.val * 512 + j.val) / 1 % 512 = j.val; omega
      | ⟨2, _⟩ => rfl)
  rw [e0]
  have e3 : idx_main_v19 (idx_main_v20 (ix3 i j (0 : Fin 1))) = ix1 (0 : Fin 1) :=
    funext fun a => Fin.ext (by match a with | ⟨0, _⟩ => rfl)
  have es : ∀ k : Fin 512, val_main_v17 (F := Ideal) x0 x1 x2 x3 x4 x5 (lidx_main_v18 (ix3 i j (0 : Fin 1)) k) * x6 (ridx_main_v18 (ix3 i j (0 : Fin 1)) k)
      = max ((∑ k0 : Fin 512, max ((projX x0 x2 i k0 + projY x1 x2 j k0) + x3 (ix1 k0)) zero * x4 (ix2 k0 k)) + x5 (ix1 k)) zero
          * x6 (ix2 k (0 : Fin 1)) := fun k => by
    have e1 : lidx_main_v18 (ix3 i j (0 : Fin 1)) k = ix3 i j k :=
      funext fun a => Fin.ext (by match a with | ⟨0, _⟩ => rfl | ⟨1, _⟩ => rfl | ⟨2, _⟩ => rfl)
    have e2 : ridx_main_v18 (ix3 i j (0 : Fin 1)) k = ix2 k (0 : Fin 1) :=
      funext fun a => Fin.ext (by match a with | ⟨0, _⟩ => rfl | ⟨1, _⟩ => rfl)
    rw [e1, e2, hidden2_apply]
  rw [e3, Finset.sum_congr rfl fun k _ => es k]
  rfl

/-- THE REFERENCE'S RESULT IS THE SCORE MATRIX. -/
theorem result_eq : val_main_v22 (F := Ideal) x0 x1 x2 x3 x4 x5 x6 x7 = scores x0 x1 x2 x3 x4 x5 x6 x7 := by
  funext idx
  obtain ⟨i, j, rfl⟩ : ∃ (i j : Fin 512), idx = ix2 i j := ⟨idx 0, idx 1, eq_ix2 idx⟩
  rw [result_apply, scores_ix2]

end Cert.PairScore.Ref

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.Tile.lean ====
/-
  One tile of the score matrix, as the kernel's body computes it, read at an index.

  The body receives 64 rows of the first projection (`x0`), 128 rows of the second (`x1`) and the parameters, and produces
  the 64 × 128 tile of scores of the pairs (row `p` of `x0`, row `q` of `x1`).  It builds the stack
  `h1[p, q, k] = max ((x0[p,k] + x1[q,k]) + b1[k], 0)`, FLATTENS the pair axes (the pair `(p, q)` is row `128·p + q` of a
  `[8192, 512]` matrix) to multiply by `W2` in one matrix product from a zero accumulator, adds `b2`, clamps at zero,
  UNFLATTENS, multiplies by the row `w3` and sums over the last axis, and adds `b3`.  A change of float format is the
  identity on the extended reals, a matrix product from zero is the plain sum of products over the contracted axis, and the
  flattening followed by the unflattening sends the pair `(p, q)` to itself; so the entry `(p, q)` of the tile is
  `pairScore` of row `p` of `x0` and row `q` of `x1`.
-/
import proofs.«116587_j56453050138736_2_alg».proof.Proof.Gen.KernelIdeal.Skeleton
import proofs.«116587_j56453050138736_2_alg».proof.Proof.Spec
import proofs.«116587_j56453050138736_2_alg».proof.Proof.LibPlainDot
import proofs.«116587_j56453050138736_2_alg».proof.Proof.LibPairStack
import Idealize.ShloMosaic.Lib.ValueLayout
import Idealize.ShloMosaic.PureOps.Ideal.Laws

noncomputable section

namespace Cert.PairScore.Tile

open Idealize.ShloMosaic Idealize.ShloMosaic.ValueIdx Idealize.ShloMosaic.PairStack Cert.KernelIdeal Cert.KernelIdeal.Gen
open Cert.PairScore

/-- The stack of first hidden rows of the tile's pairs, as the body spells it. -/
def bodyH1 (x0 : Vec Ideal S64x512 .f32) (x1 : Vec Ideal S128x512 .f32) (x2 : Vec Ideal S1x512 .f32) : FVec Ideal S64x128x512 .f32 :=
  maximumf
    (addf
      (addf
        (broadcastTo S64x128x512 (shapeCast S64x1x512 (shapeCast S64x512 x0 shapeCasts_S64x512_S64x512) shapeCasts_S64x512_S64x1x512) broadcasts_S64x1x512_S64x128x512)
        (broadcastTo S64x128x512 (shapeCast S1x128x512 (shapeCast S128x512 x1 shapeCasts_S128x512_S128x512) shapeCasts_S128x512_S1x128x512) broadcasts_S1x128x512_S64x128x512))
      (broadcastTo S64x128x512 (shapeCast S1x1x512 (shapeCast S1x512 x2 shapeCasts_S1x512_S1x512) shapeCasts_S1x512_S1x1x512) broadcasts_S1x1x512_S64x128x512))
    (broadcast S64x128x512 (Scalar.ofBits (F := Ideal) .f32 0x00000000#32))

/-- The stack of second hidden rows from the stack of first ones: flatten, one matrix product, bias, clamp, unflatten. -/
def bodyH2 (h1 : FVec Ideal S64x128x512 .f32) (x3 : FVec Ideal S512x512 .bf16) (x4 : Vec Ideal S1x512 .f32) : FVec Ideal S64x128x512 .f32 :=
  shapeCast S64x128x512
    (maximumf
      (addf
        (matmul dot_S8192x512_S512x512_S8192x512_1_0_0_1_n_n none
          (truncf .bf16 (shapeCast S8192x512 h1 shapeCasts_S64x128x512_S8192x512) bitsLt_bf16_f32)
          (shapeCast S512x512 x3 shapeCasts_S512x512_S512x512) (constant (F := Ideal) S8192x512 .f32 0x00000000#32))
        (broadcastTo S8192x512 (shapeCast S1x512 x4 shapeCasts_S1x512_S1x512) broadcasts_S1x512_S8192x512))
      (broadcast S8192x512 (Scalar.ofBits (F := Ideal) .f32 0x00000000#32)))
    shapeCasts_S8192x512_S64x128x512

/-- The tile of scores from the stack of second hidden rows: weight by `w3`, sum over the last axis, add `b3`. -/
def bodyOut (h2 : FVec Ideal S64x128x512 .f32) (x5 : Vec Ideal S1x512 .f32) (x6 : Vec Ideal S1x1 .f32) : FVec Ideal S64x128 .f32 :=
  addf
    (multiReduction .add [2] S64x128
      (mulf h2 (broadcastTo S64x128x512 (shapeCast S1x1x512 (shapeCast S1x512 x5 shapeCasts_S1x512_S1x512) shapeCasts_S1x512_S1x1x512) broadcasts_S1x1x512_S64x128x512))
      0x00000000#32 reduces_S64x128x512_S64x128 (.inl rfl) rfl)
    (broadcastTo S64x128 (shapeCast S1x1 x6 shapeCasts_S1x1_S1x1) broadcasts_S1x1_S64x128)

/-- The body's one stored value is the composition of the three. -/
theorem pay_eq (x0 : Vec Ideal S64x512 .f32) (x1 : Vec Ideal S128x512 .f32) (x2 : Vec Ideal S1x512 .f32) (x3 : Vec Ideal S512x512 .bf16)
    (x4 x5 : Vec Ideal S1x512 .f32) (x6 : Vec Ideal S1x1 .f32) :
    k0_pay1 (F := Ideal) x0 x1 x2 x3 x4 x5 x6 = bodyOut (bodyH2 (bodyH1 x0 x1 x2) x3 x4) x5 x6 := rfl

/-- The first hidden row of the pair `(p, q)` at `k`. -/
theorem bodyH1_apply (x0 : Vec Ideal S64x512 .f32) (x1 : Vec Ideal S128x512 .f32) (x2 : Vec Ideal S1x512 .f32)
    (p : Fin 64) (q : Fin 128) (k : Fin 512) :
    bodyH1 x0 x1 x2 (ix3 p q k) = max ((x0 (ix2 p k) + x1 (ix2 q k)) + x2 (ix2 (0 : Fin 1) k)) zero := by
  unfold bodyH1
  rw [maximumf_apply, addf_apply, addf_apply, broadcast_apply, broadcastTo_a1c_abc_apply, broadcastTo_1bc_abc_apply,
    broadcastTo_11c_abc_apply, shapeCast_ac_a1c_apply, shapeCast_ab_1ab_apply, shapeCast_ab_1ab_apply, shapeCast_self,
    shapeCast_self, shapeCast_self]
  rfl

/-- The pair `(p, q)` of a 64 × 128 tile is row `128·p + q` of the flattened stack. -/
abbrev flatRow (p : Fin 64) (q : Fin 128) : Fin 8192 := ⟨p.val * 128 + q.val, by have := p.isLt; have := q.isLt; omega⟩

/-- Row `128·p + q` of the product of the flattened stack with `w`, from the zero accumulator: the sum over the
    contracted axis of the pair's hidden row against a column of `w`. -/
theorem flatProduct_apply (h1 : FVec Ideal S64x128x512 .f32) (w : FVec Ideal S512x512 .bf16) (p : Fin 64) (q : Fin 128) (k' : Fin 512) :
    matmul dot_S8192x512_S512x512_S8192x512_1_0_0_1_n_n none
        (truncf .bf16 (shapeCast S8192x512 h1 shapeCasts_S64x128x512_S8192x512) bitsLt_bf16_f32)
        w (constant (F := Ideal) S8192x512 .f32 0x00000000#32) (ix2 (flatRow p q) k')
      = ∑ k : Fin 512, h1 (ix3 p q k) * w (ix2 k k') := by
  refine (Ideal.matmul_constant_zero_apply _ none _ _ _).trans ?_
  refine (PlainDot.plain_sum dot_S8192x512_S512x512_S8192x512_1_0_0_1_n_n rfl rfl rfl rfl rfl rfl rfl rfl
    (fun a b => (truncf .bf16 (shapeCast S8192x512 h1 shapeCasts_S64x128x512_S8192x512) bitsLt_bf16_f32 : FVec Ideal S8192x512 .bf16) a
      * w b) (flatRow p q) k').trans ?_
  refine Finset.sum_congr rfl fun k _ => ?_
  rw [truncf_apply, shapeCast_abc_nc_apply _ _ (flatRow p q) k p q rfl]

/-- The second hidden row of the pair `(p, q)` at `k'`: the flattened row `128·p + q` of the product, unflattened. -/
theorem bodyH2_apply (h1 : FVec Ideal S64x128x512 .f32) (x3 : FVec Ideal S512x512 .bf16) (x4 : Vec Ideal S1x512 .f32)
    (p : Fin 64) (q : Fin 128) (k' : Fin 512) :
    bodyH2 h1 x3 x4 (ix3 p q k')
      = max ((∑ k : Fin 512, h1 (ix3 p q k) * x3 (ix2 k k')) + x4 (ix2 (0 : Fin 1) k')) zero := by
  unfold bodyH2
  simp only [shapeCast_self]
  rw [shapeCast_nc_abc_apply _ _ p q k' (flatRow p q) rfl, maximumf_apply, addf_apply, broadcast_apply,
    broadcastTo_1b_ab_apply, flatProduct_apply]
  rfl

/-- A sum over the last axis of a `[64, 128, 512]` stack from the zero accumulator, at `(p, q)`. -/
theorem lastAxisSum_apply (src : FVec Ideal S64x128x512 .f32) (h : S64x128x512.Reduces [2] S64x128) (hφ : FKind.Formats .f32)
    (hacc : (0x00000000#32 : BitVec 32) = FKind.add.neutral .f32 hφ) (p : Fin 64) (q : Fin 128) :
    multiReduction .add [2] S64x128 src 0x00000000#32 h hφ hacc (ix2 p q) = ∑ k : Fin 512, src (ix3 p q k) := by
  refine (Ideal.multiReduction_add_single src 0x00000000#32 h hφ hacc (ix2 p q)).trans ?_
  exact Finset.sum_congr rfl fun k _ => congrArg src (lift_last h p q k)

/-- The score of the pair `(p, q)` from its second hidden row. -/
theorem bodyOut_apply (h2 : FVec Ideal S64x128x512 .f32) (x5 : Vec Ideal S1x512 .f32) (x6 : Vec Ideal S1x1 .f32) (p : Fin 64) (q : Fin 128) :
    bodyOut h2 x5 x6 (ix2 p q) = (∑ k : Fin 512, h2 (ix3 p q k) * x5 (ix2 (0 : Fin 1) k)) + x6 (ix2 (0 : Fin 1) (0 : Fin 1)) := by
  unfold bodyOut
  simp only [shapeCast_self]
  rw [addf_apply, broadcastTo_11_ab_apply]
  refine congrArg (· + x6 (ix2 (0 : Fin 1) (0 : Fin 1))) ?_
  refine (lastAxisSum_apply _ _ _ _ p q).trans ?_
  refine Finset.sum_congr rfl fun k _ => ?_
  rw [mulf_apply, broadcastTo_11c_abc_apply, shapeCast_ab_1ab_apply]

/-- ENTRY `(p, q)` OF THE TILE is the score of the pair (row `p` of `x0`, row `q` of `x1`). -/
theorem pay_apply (x0 : Vec Ideal S64x512 .f32) (x1 : Vec Ideal S128x512 .f32) (x2 : Vec Ideal S1x512 .f32) (x3 : Vec Ideal S512x512 .bf16)
    (x4 x5 : Vec Ideal S1x512 .f32) (x6 : Vec Ideal S1x1 .f32) (p : Fin 64) (q : Fin 128) :
    k0_pay1 (F := Ideal) x0 x1 x2 x3 x4 x5 x6 (ix2 p q)
      = pairScore (fun k => x0 (ix2 p k)) (fun k => x1 (ix2 q k)) (fun k => x2 (ix2 (0 : Fin 1) k)) (fun k k' => x3 (ix2 k k'))
          (fun k => x4 (ix2 (0 : Fin 1) k)) (fun k => x5 (ix2 (0 : Fin 1) k)) (x6 (ix2 (0 : Fin 1) (0 : Fin 1))) := by
  rw [pay_eq, bodyOut_apply]
  unfold pairScore
  refine congrArg (· + x6 (ix2 (0 : Fin 1) (0 : Fin 1))) ?_
  refine Finset.sum_congr rfl fun k' _ => ?_
  rw [bodyH2_apply]
  refine congrArg (fun z => max (z + x4 (ix2 (0 : Fin 1) k')) zero * x5 (ix2 (0 : Fin 1) k')) ?_
  refine Finset.sum_congr rfl fun k _ => ?_
  rw [bodyH1_apply]

end Cert.PairScore.Tile

end
-- ==== Proof.HostSide.lean ====
/-
  What the kernel's region finds in its operand arrays.

  Before the region the program computes, from the argument arrays, the seven arrays the region's windows stage: the two
  projections (each a product of a batch with one half of `W1`, the halves cut out by row slices), the two biases and
  the last bias recast as one-row matrices, `W3` transposed into a row, and `W2` in a narrower float format (the
  identity on the extended reals).  Each is read here at an index, in terms of the argument arrays.
-/
import proofs.«116587_j56453050138736_2_alg».proof.Proof.Gen.KernelIdeal.Frame
import proofs.«116587_j56453050138736_2_alg».proof.Proof.Spec
import proofs.«116587_j56453050138736_2_alg».proof.Proof.LibPlainDot
import Idealize.ShloMosaic.Lib.StableHlo.Run
import Idealize.ShloMosaic.Lib.ValueLayout
import Idealize.ShloMosaic.PureOps.Ideal.Laws

noncomputable section

namespace Cert.PairScore.Host

open Idealize.ShloMosaic Idealize.ShloMosaic.TcCoe Idealize.SL.Sem Idealize.ShloMosaic.ValueIdx
open Cert.KernelIdeal Cert.KernelIdeal.Gen Cert.PairScore

variable (m : (ℓ : Loc nD τ sig) → Buf (Elt Ideal) ℓ)

/-- The argument arrays on core `c`, typed as arrays of extended reals. -/
abbrev argX (c : Dev nD) : FVec Ideal S512x128 .f32 := m ((c : Thread nD τ).loc main_arg0)
abbrev argY (c : Dev nD) : FVec Ideal S512x128 .f32 := m ((c : Thread nD τ).loc main_arg1)
abbrev argW1 (c : Dev nD) : FVec Ideal S256x512 .f32 := m ((c : Thread nD τ).loc main_arg2)
abbrev argB1 (c : Dev nD) : FVec Ideal S512 .f32 := m ((c : Thread nD τ).loc main_arg3)
abbrev argW2 (c : Dev nD) : FVec Ideal S512x512 .f32 := m ((c : Thread nD τ).loc main_arg4)
abbrev argB2 (c : Dev nD) : FVec Ideal S512 .f32 := m ((c : Thread nD τ).loc main_arg5)
abbrev argW3 (c : Dev nD) : FVec Ideal S512x1 .f32 := m ((c : Thread nD τ).loc main_arg6)
abbrev argB3 (c : Dev nD) : FVec Ideal S1 .f32 := m ((c : Thread nD τ).loc main_arg7)

/-- The first projection as the region finds it, at `(P, k)`. -/
theorem projX_apply (c : Dev nD) (P k : Fin 512) :
    V m c main_v2 (ix2 P k) = projX (argX m c) (argW1 m c) P k := by
  have e : @Eq (S512x512.Idx → EReal) (V m c main_v2)
      (Host.dotGeneral (F := Ideal) dot_S512x128_S128x512_S512x512_1_0_0_1_n_n none (argX m c)
        (extractStridedSlice S128x512 ![0, 0] (argW1 m c) slices_S256x512_S128x512_0_0)) := by
    dsimp only [Gen.V, Gen.hostOps0]; after_results
  rw [e]
  refine (Ideal.dotGeneral_apply _ none _ _ _ _).trans ?_
  refine (PlainDot.plain_sum dot_S512x128_S128x512_S512x512_1_0_0_1_n_n rfl rfl rfl rfl rfl rfl rfl rfl
    (fun a b => argX m c a
      * (extractStridedSlice S128x512 ![0, 0] (argW1 m c) slices_S256x512_S128x512_0_0 : S128x512.Idx → EReal) b) P k).trans ?_
  unfold projX
  refine Finset.sum_congr rfl fun d _ => ?_
  exact congrArg (fun z => argX m c (ix2 P d) * z)
    (slice2_axis0_apply 0 _ slices_S256x512_S128x512_0_0 d k (upper d) (Nat.zero_add _).symm)

/-- The second projection as the region finds it, at `(Q, k)`. -/
theorem projY_apply (c : Dev nD) (Q k : Fin 512) :
    V m c main_v3 (ix2 Q k) = projY (argY m c) (argW1 m c) Q k := by
  have e : @Eq (S512x512.Idx → EReal) (V m c main_v3)
      (Host.dotGeneral (F := Ideal) dot_S512x128_S128x512_S512x512_1_0_0_1_n_n none (argY m c)
        (extractStridedSlice S128x512 ![128, 0] (argW1 m c) slices_S256x512_S128x512_128_0)) := by
    dsimp only [Gen.V, Gen.hostOps0]; after_results
  rw [e]
  refine (Ideal.dotGeneral_apply _ none _ _ _ _).trans ?_
  refine (PlainDot.plain_sum dot_S512x128_S128x512_S512x512_1_0_0_1_n_n rfl rfl rfl rfl rfl rfl rfl rfl
    (fun a b => argY m c a
      * (extractStridedSlice S128x512 ![128, 0] (argW1 m c) slices_S256x512_S128x512_128_0 : S128x512.Idx → EReal) b) Q k).trans ?_
  unfold projY
  refine Finset.sum_congr rfl fun d _ => ?_
  exact congrArg (fun z => argY m c (ix2 Q d) * z)
    (slice2_axis0_apply 128 _ slices_S256x512_S128x512_128_0 d k (lower d) rfl)

/-- The first bias as a one-row matrix. -/
theorem b1_apply (c : Dev nD) (u : Fin 1) (k : Fin 512) :
    V m c main_v4 (ix2 u k) = argB1 m c (ix1 k) := by
  have e : @Eq (S1x512.Idx → EReal) (V m c main_v4)
      (shapeCast S1x512 (argB1 m c) shapeCasts_S512_S1x512) := by
    dsimp only [Gen.V, Gen.hostOps0]; after_results; rfl
  rw [e]
  exact shapeCast_a_1a_apply _ shapeCasts_S512_S1x512 u k

/-- The second bias as a one-row matrix. -/
theorem b2_apply (c : Dev nD) (u : Fin 1) (k : Fin 512) :
    V m c main_v5 (ix2 u k) = argB2 m c (ix1 k) := by
  have e : @Eq (S1x512.Idx → EReal) (V m c main_v5)
      (shapeCast S1x512 (argB2 m c) shapeCasts_S512_S1x512) := by
    dsimp only [Gen.V, Gen.hostOps0]; after_results; rfl
  rw [e]
  exact shapeCast_a_1a_apply _ shapeCasts_S512_S1x512 u k

/-- The last layer's column of weights, transposed into a row. -/
theorem w3_apply (c : Dev nD) (u : Fin 1) (k : Fin 512) :
    V m c main_v6 (ix2 u k) = argW3 m c (ix2 k u) := by
  have e : @Eq (S1x512.Idx → EReal) (V m c main_v6)
      (transpose S1x512 [1, 0] (argW3 m c) transposes_S512x1_S1x512_1_0) := by
    dsimp only [Gen.V, Gen.hostOps0]; after_results
  rw [e]
  exact transpose_ix2_apply _ transposes_S512x1_S1x512_1_0 u k

/-- The last bias as a one-entry matrix. -/
theorem b3_apply (c : Dev nD) (u v : Fin 1) :
    V m c main_v7 (ix2 u v) = argB3 m c (ix1 v) := by
  have e : @Eq (S1x1.Idx → EReal) (V m c main_v7)
      (shapeCast S1x1 (argB3 m c) shapeCasts_S1_S1x1) := by
    dsimp only [Gen.V, Gen.hostOps0]; after_results; rfl
  rw [e]
  exact shapeCast_a_1a_apply _ shapeCasts_S1_S1x1 u v

/-- The middle layer's weights in the narrower format: the same extended reals. -/
theorem w2_apply (c : Dev nD) (i : S512x512.Idx) :
    V m c main_v8 i = argW2 m c i := by
  have e : @Eq (S512x512.Idx → EReal) (V m c main_v8) (argW2 m c) := by
    dsimp only [Gen.V, Gen.hostOps0]; after_results; rfl
  rw [e]

end Cert.PairScore.Host

end
-- ==== Proof.ScoreTiles.lean ====
/-
  From the tiles to the whole score matrix.

  The grid has 8 × 4 points; the point `(I, J)` stages rows `64·I … 64·I + 63` of the first projection, rows
  `128·J … 128·J + 127` of the second, the parameters whole, and writes back the 64 × 128 tile of the result at rows
  `64·I + p`, columns `128·J + q`.  A tile's entry `(p, q)` is the score of the pair (row `p` of the first block, row `q`
  of the second), that is the score of the pair `(64·I + p, 128·J + q)` of the argument arrays: every tile is the
  restriction of ONE matrix, the score matrix.  The 32 tiles cover the result (entry `(i, j)` lies in the tile of the
  point `(i / 64, j / 128)`), so after the run the result array is the score matrix.
-/
import proofs.«116587_j56453050138736_2_alg».proof.Proof.Gen.KernelIdeal.Value
import proofs.«116587_j56453050138736_2_alg».proof.Proof.Spec
import proofs.«116587_j56453050138736_2_alg».proof.Proof.Tile
import proofs.«116587_j56453050138736_2_alg».proof.Proof.HostSide
import Idealize.ShloMosaic.Lib.Pipeline.Value

noncomputable section

namespace Cert.PairScore.Kernel

open Idealize.ShloMosaic Idealize.ShloMosaic.TcCoe Idealize.SL.Sem Idealize.ShloMosaic.ValueIdx
open Idealize.ShloMosaic.Pipeline (Dat)
open Cert.KernelIdeal Cert.KernelIdeal.Gen Cert.PairScore Cert.PairScore.Host

variable (m : (ℓ : Loc nD τ sig) → Buf (Elt Ideal) ℓ) (ρ : Dev nD → PrngReg)

/-- The score matrix of the argument arrays on core `c`. -/
abbrev result (c : Dev nD) : Buf (Elt Ideal) ((c : Thread nD τ).loc main_v9) :=
  scores (argX m c) (argY m c) (argW1 m c) (argB1 m c) (argW2 m c) (argB2 m c) (argW3 m c) (argB3 m c)

theorem hz : (![0, 0] : Fin 2 → Nat) = fun _ => 0 := funext fun a => by fin_cases a <;> rfl

/-- The block indices over the grid: the two projections' blocks follow the tile's row and column block, each parameter
    has the one block `(0, 0)`, and the tile's block indices stay in their ranges. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 7 ∧ win0_7.index t (1 : Fin 2) ≤ 3 :=
  (by decide +kernel : ∀ t : Fin grid0.N, _)

/-- Every tile of the 8 × 4 tiling is some point's. -/
theorem idx_onto : ∀ (q0 : Fin 8) (q1 : Fin 4), ∃ t : Fin cfg0.N, win0_7.index t = ![q0.val, q1.val] :=
  (by decide +kernel : ∀ (q0 : Fin 8) (q1 : Fin 4), ∃ t : Fin grid0.N, win0_7.index t = ![q0.val, q1.val])

/-! ## The staged blocks, read at an index -/

/-- Row `p` of the first projection's block at point `t` is row `P = 64·I + p` of the projection. -/
theorem blk0_apply (c : Dev nD) (t : Fin cfg0.N) (p : Fin 64) (k : Fin 512) (P : Fin 512)
    (h0 : P.val = win0_0.index t (0 : Fin 2) * 64 + p.val) (h1 : win0_0.index t (1 : Fin 2) = 0) :
    (iblk m c 0 t : Vec Ideal S64x512 .f32) (ix2 p k) = projX (argX m c) (argW1 m c) P k := by
  show V m c main_v2 (((cfg0.win 0).blk t).view.emb (ix2 p k)) = _
  have e : ((cfg0.win 0).blk t).view.emb (ix2 p k) = ix2 P k := funext fun a => Fin.ext (by
    match a with
    | ⟨0, _⟩ => show win0_0.index t (0 : Fin 2) * 64 + 1 * p.val = P.val; omega
    | ⟨1, _⟩ => show win0_0.index t (1 : Fin 2) * 512 + 1 * k.val = k.val; omega)
  rw [e]
  exact projX_apply m c P k

/-- Row `q` of the second projection's block at point `t` is row `Q = 128·J + q` of the projection. -/
theorem blk1_apply (c : Dev nD) (t : Fin cfg0.N) (q : Fin 128) (k : Fin 512) (Q : Fin 512)
    (h0 : Q.val = win0_1.index t (0 : Fin 2) * 128 + q.val) (h1 : win0_1.index t (1 : Fin 2) = 0) :
    (iblk m c 1 t : Vec Ideal S128x512 .f32) (ix2 q k) = projY (argY m c) (argW1 m c) Q k := by
  show V m c main_v3 (((cfg0.win 1).blk t).view.emb (ix2 q k)) = _
  have e : ((cfg0.win 1).blk t).view.emb (ix2 q k) = ix2 Q k := funext fun a => Fin.ext (by
    match a with
    | ⟨0, _⟩ => show win0_1.index t (0 : Fin 2) * 128 + 1 * q.val = Q.val; omega
    | ⟨1, _⟩ => show win0_1.index t (1 : Fin 2) * 512 + 1 * k.val = k.val; omega)
  rw [e]
  exact projY_apply m c Q k

/-- The first bias' one block. -/
theorem blk2_apply (c : Dev nD) (t : Fin cfg0.N) (k : Fin 512)
    (h0 : win0_2.index t (0 : Fin 2) = 0) (h1 : win0_2.index t (1 : Fin 2) = 0) :
    (iblk m c 2 t : Vec Ideal S1x512 .f32) (ix2 (0 : Fin 1) k) = argB1 m c (ix1 k) := by
  show V m c main_v4 (((cfg0.win 2).blk t).view.emb (ix2 (0 : Fin 1) k)) = _
  have e : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 512 + 1 * k.val = k.val; omega)
  rw [e]
  exact b1_apply m c 0 k

/-- The middle layer's weights' one block. -/
theorem blk3_apply (c : Dev nD) (t : Fin cfg0.N) (k k' : Fin 512)
    (h0 : win0_3.index t (0 : Fin 2) = 0) (h1 : win0_3.index t (1 : Fin 2) = 0) :
    (iblk m c 3 t : Vec Ideal S512x512 .bf16) (ix2 k k') = argW2 m c (ix2 k k') := by
  show V m c main_v8 (((cfg0.win 3).blk t).view.emb (ix2 k k')) = _
  have e : ((cfg0.win 3).blk t).view.emb (ix2 k k') = ix2 k k' := funext fun a => Fin.ext (by
    match a with
    | ⟨0, _⟩ => show win0_3.index t (0 : Fin 2) * 512 + 1 * k.val = k.val; omega
    | ⟨1, _⟩ => show win0_3.index t (1 : Fin 2) * 512 + 1 * k'.val = k'.val; omega)
  rw [e]
  exact w2_apply m c (ix2 k k')

/-- The second bias' one block. -/
theorem blk4_apply (c : Dev nD) (t : Fin cfg0.N) (k : Fin 512)
    (h0 : win0_4.index t (0 : Fin 2) = 0) (h1 : win0_4.index t (1 : Fin 2) = 0) :
    (iblk m c 4 t : Vec Ideal S1x512 .f32) (ix2 (0 : Fin 1) k) = argB2 m c (ix1 k) := by
  show V m c main_v5 (((cfg0.win 4).blk t).view.emb (ix2 (0 : Fin 1) k)) = _
  have e : ((cfg0.win 4).blk t).view.emb (ix2 (0 : Fin 1) k) = ix2 (0 : Fin 1) k := funext fun a => Fin.ext (by
    match a with
    | ⟨0, _⟩ => show win0_4.index t (0 : Fin 2) * 1 + 1 * 0 = 0; omega
    | ⟨1, _⟩ => show win0_4.index t (1 : Fin 2) * 512 + 1 * k.val = k.val; omega)
  rw [e]
  exact b2_apply m c 0 k

/-- The last layer's row of weights' one block. -/
theorem blk5_apply (c : Dev nD) (t : Fin cfg0.N) (k : Fin 512)
    (h0 : win0_5.index t (0 : Fin 2) = 0) (h1 : win0_5.index t (1 : Fin 2) = 0) :
    (iblk m c 5 t : Vec Ideal S1x512 .f32) (ix2 (0 : Fin 1) k) = argW3 m c (ix2 k (0 : Fin 1)) := by
  show V m c main_v6 (((cfg0.win 5).blk t).view.emb (ix2 (0 : Fin 1) k)) = _
  have e : ((cfg0.win 5).blk t).view.emb (ix2 (0 : Fin 1) k) = ix2 (0 : Fin 1) k := funext fun a => Fin.ext (by
    match a with
    | ⟨0, _⟩ => show win0_5.index t (0 : Fin 2) * 1 + 1 * 0 = 0; omega
    | ⟨1, _⟩ => show win0_5.index t (1 : Fin 2) * 512 + 1 * k.val = k.val; omega)
  rw [e]
  exact w3_apply m c 0 k

/-- The last bias' one block. -/
theorem blk6_apply (c : Dev nD) (t : Fin cfg0.N)
    (h0 : win0_6.index t (0 : Fin 2) = 0) (h1 : win0_6.index t (1 : Fin 2) = 0) :
    (iblk m c 6 t : Vec Ideal S1x1 .f32) (ix2 (0 : Fin 1) (0 : Fin 1)) = argB3 m c (ix1 (0 : Fin 1)) := by
  show V m c main_v7 (((cfg0.win 6).blk t).view.emb (ix2 (0 : Fin 1) (0 : Fin 1))) = _
  have e : ((cfg0.win 6).blk t).view.emb (ix2 (0 : Fin 1) (0 : Fin 1)) = ix2 (0 : Fin 1) (0 : Fin 1) := funext fun a => Fin.ext (by
    match a with
    | ⟨0, _⟩ => show win0_6.index t (0 : Fin 2) * 1 + 1 * 0 = 0; omega
    | ⟨1, _⟩ => show win0_6.index t (1 : Fin 2) * 1 + 1 * 0 = 0; omega)
  rw [e]
  exact b3_apply m c 0 0

/-! ## Every tile is a tile of the score matrix -/

/-- WHAT POINT `t` WRITES BACK is its tile of the score matrix. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S64x512) hz, View.ld_unit_zero (S := S128x512) hz, View.ld_unit_zero (S := S1x512) hz,
    View.ld_unit_zero (S := S512x512) hz, View.ld_unit_zero (S := S1x1) hz]
  obtain ⟨e00, e01, e10, e11, e20, e21, e30, e31, e40, e41, e50, e51, e60, e61, b0, b1⟩ := idx_facts t
  refine funext fun (j : S64x128.Idx) => ?_
  obtain ⟨p, q, rfl⟩ : ∃ (p : Fin 64) (q : Fin 128), j = ix2 p q := ⟨j 0, j 1, eq_ix2 j⟩
  have hp := p.isLt
  have hq := q.isLt
  obtain ⟨P, hP⟩ : ∃ P : Fin 512, P.val = win0_7.index t (0 : Fin 2) * 64 + p.val := ⟨⟨_, by omega⟩, rfl⟩
  obtain ⟨Q, hQ⟩ : ∃ Q : Fin 512, Q.val = win0_7.index t (1 : Fin 2) * 128 + q.val := ⟨⟨_, by omega⟩, rfl⟩
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  have hemb : ((cfg0.win 7).blk t).view.emb (ix2 p q) = ix2 P Q := funext fun a => Fin.ext (by
    match a with
    | ⟨0, _⟩ => show win0_7.index t (0 : Fin 2) * 64 + 1 * p.val = P.val; omega
    | ⟨1, _⟩ => show win0_7.index t (1 : Fin 2) * 128 + 1 * q.val = Q.val; omega)
  rw [hemb]
  refine (Tile.pay_apply (iblk m c 0 t) (iblk m c 1 t) (iblk m c 2 t) (iblk m c 3 t) (iblk m c 4 t) (iblk m c 5 t) (iblk m c 6 t) p q).trans ?_
  exact pairScore_congr (fun k => blk0_apply m c t p k P (by omega) e01) (fun k => blk1_apply m c t q k Q (by omega) e11)
    (fun k => blk2_apply m c t k e20 e21) (fun k k' => blk3_apply m c t k k' e30 e31) (fun k => blk4_apply m c t k e40 e41)
    (fun k => blk5_apply m c t k e50 e51) (blk6_apply m c t e60 e61)

/-! ## The tiles cover the result -/

/-- An index of the result is in point `t`'s tile iff each coordinate is in the tile's range on its axis. -/
theorem mem_blk (t : Fin cfg0.N) (i : S512x512.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v9).slice (win0_7.rect t)).set ↔ _
  rw [View.set_slice_whole, Rect.mem_set_unit]
  exact Iff.rfl

/-- Entry `(i, j)` lies in the tile of the point `(i / 64, j / 128)`. -/
theorem cover (i : S512x512.Idx) : ∃ t : Fin cfg0.N, (cfg0.win 7).flush t = true ∧ i ∈ ((cfg0.win 7).blk t).view.set := by
  have hi0 : (i 0).val < 512 := (i 0).isLt
  have hi1 : (i 1).val < 512 := (i 1).isLt
  obtain ⟨t, ht⟩ := idx_onto ⟨(i 0).val / 64, by omega⟩ ⟨(i 1).val / 128, by omega⟩
  have q0 : win0_7.index t (0 : Fin 2) = (i 0).val / 64 := congrFun ht 0
  have q1 : win0_7.index t (1 : Fin 2) = (i 1).val / 128 := congrFun ht 1
  refine ⟨t, flush0_7 t, ?_⟩
  rw [mem_blk]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

/-- THE RESULT ARRAY after the run is the score matrix of the argument arrays. -/
theorem final (c : Dev nD) : (dats m 0 c).arrAt 7 cfg0.N = result m c :=
  (dats m 0 c).arrAt_eq_of_cover 7 (result m c) (fun t _ => flushed_eq m c t) (fun i => cover i)

/-- The kernel's run: it terminates with the result at the score matrix and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.PairScore.Kernel

end
-- ==== Proof.lean ====
/-
  A pairwise scorer computed tile by tile equals the same scorer computed whole.

  Both programs score every pair (row `i` of `x`, row `j` of `y`) by a perceptron with two hidden layers of width 512 on the
  concatenated rows, the first layer split into the two projections `x · W1[0:128]` and `y · W1[128:256]`:

      h1 = max ((x_i · W1↑ + y_j · W1↓) + b1, 0),   h2 = max (h1 · W2 + b2, 0),   score = h2 · W3 + b3.

  The reference forms the whole `[512, 512, 512]` hidden tensors.  The kernel computes the two projections first, then
  visits the 8 × 4 tiles of the score matrix; for a tile it stacks the hidden rows of its 64 × 128 pairs, flattens the two
  pair axes into one to apply `W2` as a single matrix product (in a narrower float format, which the extended reals do
  not see), and applies `W3` as a weighted sum over the last axis.  Over the extended reals both are, entry by entry, the
  same nested sums of products with the additions grouped alike (`Cert.PairScore.scores`), so no property of the inputs is
  needed: the claim holds for all extended-real inputs, the finite ones among them.

  The pieces: `Spec` states the score matrix; `RefScores` reads the reference's result as it; `Tile` reads one tile of the
  kernel's body as scores of pairs of rows of its blocks; `HostSide` reads the arrays the kernel's region is handed;
  `ScoreTiles` identifies every tile with a tile of the score matrix and covers the result with the tiles.
-/
import proofs.«116587_j56453050138736_2_alg».proof.Defs
import proofs.«116587_j56453050138736_2_alg».proof.Proof.Gen.Kernel
import proofs.«116587_j56453050138736_2_alg».proof.Proof.Gen.Kernel.Skeleton
import proofs.«116587_j56453050138736_2_alg».proof.Proof.Gen.Kernel.Launch
import proofs.«116587_j56453050138736_2_alg».proof.Proof.Gen.Kernel.Points
import proofs.«116587_j56453050138736_2_alg».proof.Proof.Gen.Kernel.Frame
import proofs.«116587_j56453050138736_2_alg».proof.Proof.Gen.KernelIdeal
import proofs.«116587_j56453050138736_2_alg».proof.Proof.Gen.KernelIdeal.Skeleton
import proofs.«116587_j56453050138736_2_alg».proof.Proof.Gen.KernelIdeal.Launch
import proofs.«116587_j56453050138736_2_alg».proof.Proof.Gen.KernelIdeal.Points
import proofs.«116587_j56453050138736_2_alg».proof.Proof.Gen.KernelIdeal.Frame
import proofs.«116587_j56453050138736_2_alg».proof.Proof.Gen.ReferenceIdeal
import proofs.«116587_j56453050138736_2_alg».proof.Proof.Gen.Pre_finite_inputs
import proofs.«116587_j56453050138736_2_alg».proof.Proof.Gen.KernelIdeal.Value
import proofs.«116587_j56453050138736_2_alg».proof.Proof.Gen.ReferenceIdeal.Run
import proofs.«116587_j56453050138736_2_alg».proof.Proof.Gen.ReferenceIdeal.Read
import proofs.«116587_j56453050138736_2_alg».proof.Proof.RefScores
import proofs.«116587_j56453050138736_2_alg».proof.Proof.ScoreTiles
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- Both programs end with the score matrix of their (agreeing) arguments. -/
theorem algebraic : Cert.algebraic_KernelIdeal_ReferenceIdeal := by
  intro m ρ m' ρ' _ hagree
  refine ⟨fun c => Cert.PairScore.Kernel.result m c, Cert.PairScore.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v22_eq _ _ _ _ _ _ _ _).trans (Cert.PairScore.Ref.result_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
